-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x256 .f32) (main_arg1 : FVec F S8192 .f32) (main_arg2 : FVec F S8192x8192 .f32) (main_arg3 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩
abbrev S8192x1 : Shape := ⟨2, ![8192, 1]⟩
abbrev S2x8192x256 : Shape := ⟨3, ![2, 8192, 256]⟩
abbrev S8192x128 : Shape := ⟨2, ![8192, 128]⟩
abbrev S128x1 : Shape := ⟨2, ![128, 1]⟩
abbrev S1x8192x256 : Shape := ⟨3, ![1, 8192, 256]⟩
abbrev S128x256 : Shape := ⟨2, ![128, 256]⟩

abbrev nBuf : Space → Nat
  | .hbm => 20
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x256, .bf16⟩
  | .hbm, ⟨14, _⟩ => ⟨S2x8192x256, .f32⟩
  | .hbm, ⟨15, _⟩ => ⟨S1x8192x256, .f32⟩
  | .hbm, ⟨16, _⟩ => ⟨S8192x256, .f32⟩
  | .hbm, ⟨17, _⟩ => ⟨S1x8192x256, .f32⟩
  | .hbm, ⟨18, _⟩ => ⟨S8192x256, .f32⟩
  | .hbm, ⟨19, _⟩ => ⟨S8192x256, .f32⟩
  | .local _ .vmem, ⟨0, _⟩ => ⟨S8192x128, .f32⟩
  | .local _ .vmem, ⟨1, _⟩ => ⟨S8192x128, .f32⟩
  | .local _ .vmem, ⟨2, _⟩ => ⟨S8192x256, .bf16⟩
  | .local _ .vmem, ⟨3, _⟩ => ⟨S128x1, .f32⟩
  | .local _ .vmem, ⟨4, _⟩ => ⟨S128x1, .f32⟩
  | .local _ .vmem, ⟨5, _⟩ => ⟨S1x8192x256, .f32⟩
  | .local _ .vmem, ⟨6, _⟩ => ⟨S1x8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1_S_ : S1.ShapeCasts S_
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  shapeCasts_S8192x256_S1x8192x256 : S8192x256.ShapeCasts S1x8192x256
  inb_S8192x128_S8192x128_0_0 : ∀ a, (![0, 0] : Fin 2 → Nat) a + S8192x128.size a ≤ S8192x128.size a
  h_S8192x128 : 0 < S8192x128.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  slices_S2x8192x256_S1x8192x256_0_0_0 : S2x8192x256.Slices ![0, 0, 0] S1x8192x256
  slices_S2x8192x256_S1x8192x256_1_0_0 : S2x8192x256.Slices ![1, 0, 0] S1x8192x256
  dot_S8192x128_S8192x256_S128x256_0_0_1_1_n_n_wf : DotDims.WF S8192x128 S8192x256 S128x256 [0] [0] [1] [1] [] []
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x8192.size a
  hwx0_0 : ∀ i : grid0.Coords, EltTy.bits .f32 = 32 ∨ (Rect.block (s := S8192x8192) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x256.size a ≤ S2x8192x256.size a
  hwx0_3 : ∀ i : grid0.Coords, EltTy.bits .f32 = 32 ∨ (Rect.block (s := S2x8192x256) S1x8192x256.size (cc0_transform_3 i) (hinb0_3 i)).WholeWords (EltTy.packing .f32)

variable [Facts₀]

def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x256, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  shapeCasts_S1_S_ : S1.ShapeCasts S_
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x8192_S8192x256_S8192x256_0_0_1_1_n_n_wf : DotDims.WF S8192x8192 S8192x256 S8192x256 [0] [0] [1] [1] [] []
  dot_S8192x8192_S8192x256_S8192x256_1_0_0_1_n_n_wf : DotDims.WF S8192x8192 S8192x256 S8192x256 [1] [0] [0] [1] [] []

variable [Facts₀]

def dot_S8192x8192_S8192x256_S8192x256_0_0_1_1_n_n : DotDims S8192x8192 S8192x256 S8192x256 where
  lhsContracting := [0]
  rhsContracting := [0]
  lhsNonContracting := [1]
  rhsNonContracting := [1]
  lhsBatch := []
  rhsBatch := []
  wf := dot_S8192x8192_S8192x256_S8192x256_0_0_1_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Pieces.lean ====
/-
  What one run of the body leaves in the output block's staging buffer, as a value. The body loads its four
  buffers whole and ends with ONE store that covers the whole [1, 8192, 256] block, so the buffer ends holding that
  store's value: the accumulator it read, plus the panel's contribution. At the first panel of a run the body first
  stores the zero block and the accumulator it then reads back is that zero block; at every later panel the
  accumulator is what the panel before left. For any float instance.
-/
import proofs.«113723_j80891414053479_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later panel of a run: the block ends at the body's one store, computed from the three input blocks and the
    accumulator xo the panel before left. -/
theorem out_B (c : Dev nD) (i : grid0.Coords) (a2 : Memref sig .tc .vmem S8192x128 .f32) (h2 : a2.IsWhole)
    (a3 : Memref sig .tc .vmem S8192x256 .bf16) (h3 : a3.IsWhole) (a4 : Memref sig .tc .vmem S128x1 .f32) (h4 : a4.IsWhole)
    (a5 : Memref sig .tc .vmem S1x8192x256 .f32) (h5 : a5.IsWhole) (hc : ¬cond0_0 i)
    (x0 : Vec F S8192x128 .f32) (x1 : Vec F S8192x256 .bf16) (x2 : Vec F S128x1 .f32) (xo : Vec F S1x8192x256 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S8192x128) hz2, View.ld_unit_zero (S := S8192x256) hz2, View.ld_unit_zero (S := S128x1) hz2,
    View.ld_unit_zero (S := S1x8192x256) hz3]

/-- The first panel of a run: the body stores the zero block, reads it back as its accumulator, and the block ends
    at the last store computed over that zero block. -/
theorem out_A (c : Dev nD) (i : grid0.Coords) (a2 : Memref sig .tc .vmem S8192x128 .f32) (h2 : a2.IsWhole)
    (a3 : Memref sig .tc .vmem S8192x256 .bf16) (h3 : a3.IsWhole) (a4 : Memref sig .tc .vmem S128x1 .f32) (h4 : a4.IsWhole)
    (a5 : Memref sig .tc .vmem S1x8192x256 .f32) (h5 : a5.IsWhole) (hc : cond0_0 i)
    (x0 : Vec F S8192x128 .f32) (x1 : Vec F S8192x256 .bf16) (x2 : Vec F S128x1 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8192x256) hz3, View.readCov_unit_zero (S := S1x8192x256) _ hz3]
  simp only [View.readAt_eq_ld, h2.read_unread, h3.read_unread, h4.read_unread,
    View.ld_unit_zero (S := S8192x128) hz2, View.ld_unit_zero (S := S8192x256) hz2, View.ld_unit_zero (S := S128x1) hz2]

end Cert.KernelIdeal.Pieces

end
-- ==== Proof.Payload.lean ====
/-
  The body's arithmetic read at an index, over the extended reals. With e the [8192, 128] panel of eigenvectors, x
  the [8192, 256] signal, w the panel's [128, 1] coefficients and acc the accumulator block, the value the body
  stores at (0, r, q) is

      acc (0, r, q) + sum over the panel's columns kk of  e (r, kk) * ((sum over rows n of e (n, kk) * x (n, q)) * w (kk, 0)).

  Both matrix products run into a zero accumulator, so each is a plain sum over its one contracted axis; the
  roundings to bf16 on the way in are the identity on extended reals; the [128, 1] coefficients are broadcast
  along the columns. The zero block the first panel of a run stores is 0 everywhere.
-/
import proofs.«113723_j80891414053479_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Payload

open Cert.KernelIdeal Cert.KernelIdeal.Gen

/-- In the product contracting the rows of both operands, the left operand's column is the output's row, -/
theorem project_lhs_1 (i : S128x256.Idx) (k : dot_S8192x128_S8192x256_S128x256_0_0_1_1_n_n.contr.Idx) : (dot_S8192x128_S8192x256_S128x256_0_0_1_1_n_n.lhsIdx i k 1).val = (i 0).val := by
  unfold DotDims.lhsIdx
  rw [dif_neg (show ¬(1 : Fin S8192x128.rank) ∈ dot_S8192x128_S8192x256_S128x256_0_0_1_1_n_n.lhsBatch by decide), dif_pos (show (1 : Fin S8192x128.rank) ∈ dot_S8192x128_S8192x256_S128x256_0_0_1_1_n_n.lhsNonContracting by decide)]
  rfl
/-- and the right operand's column is the output's column. -/
theorem project_rhs_1 (i : S128x256.Idx) (k : dot_S8192x128_S8192x256_S128x256_0_0_1_1_n_n.contr.Idx) : (dot_S8192x128_S8192x256_S128x256_0_0_1_1_n_n.rhsIdx i k 1).val = (i 1).val := by
  unfold DotDims.rhsIdx
  rw [dif_neg (show ¬(1 : Fin S8192x256.rank) ∈ dot_S8192x128_S8192x256_S128x256_0_0_1_1_n_n.rhsBatch by decide), dif_pos (show (1 : Fin S8192x256.rank) ∈ dot_S8192x128_S8192x256_S128x256_0_0_1_1_n_n.rhsNonContracting by decide)]
  rfl

/-- The projection onto the panel: entry (kk, q) of the product contracting the ROWS of both operands is the sum
    over rows n of e (n, kk) * x (n, q). -/
theorem project_apply (e : FVec Ideal S8192x128 .bf16) (x : FVec Ideal S8192x256 .bf16) (kk : Fin 128) (q : Fin 256) :
    matmul dot_S8192x128_S8192x256_S128x256_0_0_1_1_n_n none e x (constant (F := Ideal) S128x256 .f32 0x00000000#32) (ix2 kk q)
      = ∑ n : Fin 8192, e (ix2 n kk) * x (ix2 n q) := by
  simp only [matmul]
  rw [Ideal.matmul_constant_zero_apply, ← Equiv.sum_comp (ValueIdx.contrEquiv1 dot_S8192x128_S8192x256_S128x256_0_0_1_1_n_n 8192 rfl rfl).symm]
  refine Finset.sum_congr rfl fun k _ => ?_
  have hk := ValueIdx.contrEquiv1_symm_val dot_S8192x128_S8192x256_S128x256_0_0_1_1_n_n 8192 rfl rfl k
  have el : dot_S8192x128_S8192x256_S128x256_0_0_1_1_n_n.lhsIdx (ix2 kk q) ((ValueIdx.contrEquiv1 dot_S8192x128_S8192x256_S128x256_0_0_1_1_n_n 8192 rfl rfl).symm k) = ix2 k kk := funext fun a => Fin.ext (by
    match a with
    | ⟨0, _⟩ => exact (dot_S8192x128_S8192x256_S128x256_0_0_1_1_n_n.lhsIdx_val_of_single rfl _ _).trans hk
    | ⟨1, _⟩ => exact project_lhs_1 _ _)
  have er : dot_S8192x128_S8192x256_S128x256_0_0_1_1_n_n.rhsIdx (ix2 kk q) ((ValueIdx.contrEquiv1 dot_S8192x128_S8192x256_S128x256_0_0_1_1_n_n 8192 rfl rfl).symm k) = ix2 k q := funext fun a => Fin.ext (by
    match a with
    | ⟨0, _⟩ => exact (dot_S8192x128_S8192x256_S128x256_0_0_1_1_n_n.rhsIdx_val_of_single rfl _ _).trans hk
    | ⟨1, _⟩ => exact project_rhs_1 _ _)
  rw [el, er]

/-- In the plain product the left operand's row is the output's row, -/
theorem expand_lhs_0 (i : S8192x256.Idx) (k : dot_S8192x128_S128x256_S8192x256_1_0_0_1_n_n.contr.Idx) : (dot_S8192x128_S128x256_S8192x256_1_0_0_1_n_n.lhsIdx i k 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
/-- and the right operand's column is the output's column. -/
theorem expand_rhs_1 (i : S8192x256.Idx) (k : dot_S8192x128_S128x256_S8192x256_1_0_0_1_n_n.contr.Idx) : (dot_S8192x128_S128x256_S8192x256_1_0_0_1_n_n.rhsIdx i k 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- The expansion back from the panel: entry (r, q) of the plain product is the sum over the panel's columns kk of
    e (r, kk) * s (kk, q). -/
theorem expand_apply (e : FVec Ideal S8192x128 .bf16) (s : FVec Ideal S128x256 .bf16) (r : Fin 8192) (q : Fin 256) :
    matmul dot_S8192x128_S128x256_S8192x256_1_0_0_1_n_n none e s (constant (F := Ideal) S8192x256 .f32 0x00000000#32) (ix2 r q)
      = ∑ kk : Fin 128, e (ix2 r kk) * s (ix2 kk q) := by
  simp only [matmul]
  rw [Ideal.matmul_constant_zero_apply, ← Equiv.sum_comp (ValueIdx.contrEquiv1 dot_S8192x128_S128x256_S8192x256_1_0_0_1_n_n 128 rfl rfl).symm]
  refine Finset.sum_congr rfl fun k _ => ?_
  have hk := ValueIdx.contrEquiv1_symm_val dot_S8192x128_S128x256_S8192x256_1_0_0_1_n_n 128 rfl rfl k
  have el : dot_S8192x128_S128x256_S8192x256_1_0_0_1_n_n.lhsIdx (ix2 r q) ((ValueIdx.contrEquiv1 dot_S8192x128_S128x256_S8192x256_1_0_0_1_n_n 128 rfl rfl).symm k) = ix2 r k := funext fun a => Fin.ext (by
    match a with
    | ⟨0, _⟩ => exact expand_lhs_0 _ _
    | ⟨1, _⟩ => exact (dot_S8192x128_S128x256_S8192x256_1_0_0_1_n_n.lhsIdx_val_of_single rfl _ _).trans hk)
  have er : dot_S8192x128_S128x256_S8192x256_1_0_0_1_n_n.rhsIdx (ix2 r q) ((ValueIdx.contrEquiv1 dot_S8192x128_S128x256_S8192x256_1_0_0_1_n_n 128 rfl rfl).symm k) = ix2 k q := funext fun a => Fin.ext (by
    match a with
    | ⟨0, _⟩ => exact (dot_S8192x128_S128x256_S8192x256_1_0_0_1_n_n.rhsIdx_val_of_single rfl _ _).trans hk
    | ⟨1, _⟩ => exact expand_rhs_1 _ _)
  rw [el, er]

/-- The [128, 1] coefficients broadcast along the columns: entry (kk, q) is the coefficient of row kk. -/
theorem coef_apply (w : FVec Ideal S128x1 .f32) (kk : Fin 128) (q : Fin 256) :
    broadcastTo S128x256 w broadcasts_S128x1_S128x256 (ix2 kk q) = w (ix2 kk (0 : Fin 1)) :=
  broadcastTo_apply w broadcasts_S128x1_S128x256 (ix2 kk q) (ix2 kk (0 : Fin 1)) fun a => by
    match a with
    | ⟨0, _⟩ => show kk.val = if (128 : Nat) = 1 then 0 else kk.val; rw [if_neg (by decide)]
    | ⟨1, _⟩ => show (0 : Nat) = if (1 : Nat) = 1 then 0 else q.val; rw [if_pos rfl]

/-- The zero block is 0 at every index. -/
theorem pay1_apply (j : S1x8192x256.Idx) : k0_pay1 (F := Ideal) j = 0 :=
  Ideal.ofBits_zero_f32

/-- The stored value at (0, r, q): the accumulator there plus the panel's contribution. -/
theorem pay2_apply (x0 : FVec Ideal S8192x128 .f32) (x1 : FVec Ideal S8192x256 .bf16) (x2 : FVec Ideal S128x1 .f32)
    (acc : FVec Ideal S1x8192x256 .f32) (r : Fin 8192) (q : Fin 256) :
    k0_pay2 (F := Ideal) x0 x1 x2 acc (ix3 (0 : Fin 1) r q)
      = acc (ix3 (0 : Fin 1) r q)
        + ∑ kk : Fin 128, x0 (ix2 r kk) * ((∑ n : Fin 8192, x0 (ix2 n kk) * x1 (ix2 n q)) * x2 (ix2 kk (0 : Fin 1))) := by
  unfold k0_pay2
  simp only [shapeCast_self]
  refine (shapeCast_ab_1ab_apply _ _ (0 : Fin 1) r q).trans ?_
  refine (addf_apply _ _ _).trans ?_
  refine congrArg₂ (· + ·) (shapeCast_1ab_ab_apply _ _ r q) ?_
  refine (expand_apply _ _ r q).trans ?_
  refine Finset.sum_congr rfl fun kk _ => ?_
  refine congrArg₂ (· * ·) rfl ?_
  refine (mulf_apply _ _ _).trans ?_
  exact congrArg₂ (· * ·) (project_apply _ _ kk q) (coef_apply _ kk q)

end Cert.KernelIdeal.Payload

end
-- ==== Proof.Blocks.lean ====
/-
  The three input blocks the body sees at grid point t, as entries of the arrays the kernel is launched on. The grid
  is 2 x 32 and point t = 32 a + b is panel t of the 64 panels: the eigenvector block is rows 0..8191 of columns
  128 t .. 128 t + 127, the coefficient block is rows 128 t .. 128 t + 127 of the [8192, 1] column, and the signal
  block is the whole [8192, 256] array at every point. The output block of point t is slab t / 32 of the
  [2, 8192, 256] result. For any float instance.
-/
import proofs.«113723_j80891414053479_2_alg».proof.Proof.Gen.KernelIdeal.Frame.Runs
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices at point t, decided over the 64 points: the eigenvector window sits at block column t, -/
theorem index_evecs : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- the signal window at block (0, 0), -/
theorem index_signal : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- the coefficient window at block row t, -/
theorem index_coefs : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- and the output window at slab t / 32. -/
theorem index_out : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- Entry (r, kk) of the eigenvector block at point t is entry (r, 128 t + kk) of the eigenvector array. -/
theorem evecs_apply (c : Dev nD) (t : Fin cfg0.N) (r : Fin 8192) (kk : Fin 128) (k : Fin 8192) (hk : k.val = t.val * 128 + kk.val) :
    (iblk m c 0 t : Vec F S8192x128 .f32) (ix2 r kk) = V m c main_arg2 (ix2 r k) := by
  unfold iblk
  rw [View.read_apply]
  show V m c main_arg2 _ = V m c main_arg2 _
  refine congrArg (V m c main_arg2) (funext fun a => Fin.ext ?_)
  match a with
  | ⟨0, _⟩ => show win0_0.index t 0 * 8192 + 1 * r.val = r.val; rw [(index_evecs t).1]; omega
  | ⟨1, _⟩ => show win0_0.index t 1 * 128 + 1 * kk.val = k.val; rw [(index_evecs t).2, hk]; omega

/-- Entry (n, q) of the signal block at any point is entry (n, q) of the signal array. -/
theorem signal_apply (c : Dev nD) (t : Fin cfg0.N) (n : Fin 8192) (q : Fin 256) :
    (iblk m c 1 t : Vec F S8192x256 .bf16) (ix2 n q) = V m c main_v7 (ix2 n q) := by
  unfold iblk
  rw [View.read_apply]
  show V m c main_v7 _ = V m c main_v7 _
  refine congrArg (V m c main_v7) (funext fun a => Fin.ext ?_)
  match a with
  | ⟨0, _⟩ => show win0_1.index t 0 * 8192 + 1 * n.val = n.val; rw [(index_signal t).1]; omega
  | ⟨1, _⟩ => show win0_1.index t 1 * 256 + 1 * q.val = q.val; rw [(index_signal t).2]; omega

/-- Entry (kk, 0) of the coefficient block at point t is entry (128 t + kk, 0) of the coefficient column. -/
theorem coefs_apply (c : Dev nD) (t : Fin cfg0.N) (kk : Fin 128) (k : Fin 8192) (hk : k.val = t.val * 128 + kk.val) :
    (iblk m c 2 t : Vec F S128x1 .f32) (ix2 kk (0 : Fin 1)) = V m c main_v6 (ix2 k (0 : Fin 1)) := by
  unfold iblk
  rw [View.read_apply]
  show V m c main_v6 _ = V m c main_v6 _
  refine congrArg (V m c main_v6) (funext fun a => Fin.ext ?_)
  match a with
  | ⟨0, _⟩ => show win0_2.index t 0 * 128 + 1 * kk.val = k.val; rw [(index_coefs t).1, hk]; omega
  | ⟨1, _⟩ => show win0_2.index t 1 * 1 + 1 * (0 : Nat) = 0; rw [(index_coefs t).2]

end Cert.KernelIdeal.Blocks

end
-- ==== Proof.PanelSums.lean ====
/-
  Sums over the eigen-index k < 8192 cut into 64 panels of 128 consecutive indices, the panels grouped in two
  runs of 32. The sum over one panel's 128 columns is the sum over the interval [128 t, 128 (t + 1)); a running
  sum that starts afresh at the first panel of a run and adds one panel per step is, after panel n, the sum over
  [4096 (n / 32), 128 (n + 1)); and the two runs' totals add up to the sum over all of Fin 8192. Stated in any
  commutative additive monoid: only associativity, commutativity and 0 + x = x are used.
-/
import Mathlib.Algebra.BigOperators.Intervals
import Mathlib.Algebra.BigOperators.Fin

namespace Cert.PanelSums

open Finset

variable {M : Type*} [AddCommMonoid M]

/-- Panel t's 128 columns are the indices 128 t ≤ k < 128 (t + 1). -/
theorem sum_panel (g : ℕ → M) (t : ℕ) :
    ∑ kk : Fin 128, g (t * 128 + kk.val) = ∑ k ∈ Ico (t * 128) ((t + 1) * 128), g k := by
  rw [Finset.sum_Ico_eq_sum_range, show (t + 1) * 128 - t * 128 = 128 by omega]
  exact Fin.sum_univ_eq_sum_range (fun kk => g (t * 128 + kk)) 128

/-- At the first panel of a run the running sum is zero plus that panel. -/
theorem acc_reset (g : ℕ → M) (n : ℕ) (h : n % 32 = 0) :
    (0 : M) + ∑ kk : Fin 128, g (n * 128 + kk.val) = ∑ k ∈ Ico (n / 32 * 4096) ((n + 1) * 128), g k := by
  rw [zero_add, sum_panel, show n / 32 * 4096 = n * 128 by omega]

/-- At a later panel of a run it is what the panel before left plus this panel. -/
theorem acc_step (g : ℕ → M) (n : ℕ) (h : ¬(n + 1) % 32 = 0) :
    (∑ k ∈ Ico (n / 32 * 4096) ((n + 1) * 128), g k) + ∑ kk : Fin 128, g ((n + 1) * 128 + kk.val)
      = ∑ k ∈ Ico ((n + 1) / 32 * 4096) ((n + 1 + 1) * 128), g k := by
  rw [sum_panel, show (n + 1) / 32 * 4096 = n / 32 * 4096 by omega]
  exact Finset.sum_Ico_consecutive g (by omega) (by omega)

/-- The two runs' totals together are the sum over every index. -/
theorem sum_halves (g : ℕ → M) :
    (∑ k ∈ Ico (0 * 4096) ((0 + 1) * 4096), g k) + (∑ k ∈ Ico (1 * 4096) ((1 + 1) * 4096), g k)
      = ∑ k : Fin 8192, g k.val := by
  rw [Finset.sum_Ico_consecutive g (by omega) (by omega), Fin.sum_univ_eq_sum_range g 8192]
  exact congrArg (fun s => ∑ k ∈ s, g k) (Nat.Ico_zero_eq_range 8192)

end Cert.PanelSums
-- ==== Proof.Accum.lean ====
/-
  The output block's staging buffer after grid point n, over the extended reals. Write, for an output entry (r, q)
  and an eigen-index k,

      term k  =  E (r, k) * ((sum over rows i of E (i, k) * X (i, q)) * W (k, 0)),

  E the eigenvector array, X the signal and W the coefficient column as the kernel is launched on them. Point n
  handles eigen-indices 128 n .. 128 n + 127 and adds their terms to the buffer; the first point of each run of
  32 starts from the zero block. So after point n the buffer holds, at (0, r, q), the sum of term k over
  4096 (n / 32) ≤ k < 128 (n + 1): by induction on the point.
-/
import proofs.«113723_j80891414053479_2_alg».proof.Proof.Pieces
import proofs.«113723_j80891414053479_2_alg».proof.Proof.Payload
import proofs.«113723_j80891414053479_2_alg».proof.Proof.Blocks
import proofs.«113723_j80891414053479_2_alg».proof.Proof.PanelSums

set_option maxRecDepth 16384

noncomputable section

open Idealize.ShloMosaic Idealize.ShloMosaic.TcCoe Idealize.SL.Sem
open Idealize.ShloMosaic.ValueIdx

namespace Cert.KernelIdeal.Accum

open Cert.KernelIdeal Cert.KernelIdeal.Gen

/-- A natural number as an eigen-index (only numbers below 8192 are ever used). -/
def col (k : ℕ) : Fin 8192 := ⟨k % 8192, Nat.mod_lt _ (by decide)⟩

theorem col_val {k : ℕ} (h : k < 8192) : (col k).val = k := Nat.mod_eq_of_lt h

theorem col_fin (k : Fin 8192) : col k.val = k := Fin.ext (col_val k.isLt)

/-- The contribution of eigen-index k to output entry (r, q). -/
def term (E : S8192x8192.Idx → EReal) (X : S8192x256.Idx → EReal) (W : S8192x1.Idx → EReal) (r : Fin 8192) (q : Fin 256)
    (k : ℕ) : EReal :=
  E (ix2 r (col k)) * ((∑ i : Fin 8192, E (ix2 i (col k)) * X (ix2 i q)) * W (ix2 (col k) (0 : Fin 1)))

section
variable {F : FTy → Type} [FloatOps F]
variable (m : (ℓ : Loc nD τ sig) → Buf (Elt F) ℓ)

/-- At the first point of a run the buffer ends at the body's store computed over the zero block; -/
theorem outsAt_reset (c : Dev nD) (t : Fin cfg0.N) (h0 : t.val % 32 = 0) :
    outsAt0 m c t.val t.isLt = k0_pay2 (iblk m c 0 t) (iblk m c 1 t) (iblk m c 2 t) (k0_pay1 (F := F)) :=
  (outsAt0_A m c t h0).trans
    (Pieces.out_A c (grid0.coords t) (ms0_0 t) (hs0_0 t) (ms0_1 t) (hs0_1 t) (ms0_2 t) (hs0_2 t) (ms0_3 t) (hs0_3 t)
      ((hcond0_0 t).mpr h0) (iblk m c 0 t) (iblk m c 1 t) (iblk m c 2 t))

/-- at every other point, over what the point before left. -/
theorem outsAt_step (c : Dev nD) (t : Fin cfg0.N) (h0 : ¬t.val % 32 = 0) :
    outsAt0 m c t.val t.isLt = k0_pay2 (iblk m c 0 t) (iblk m c 1 t) (iblk m c 2 t)
      (outsAt0 m c (t.val - 1) (Nat.lt_of_le_of_lt (Nat.sub_le _ _) t.isLt)) :=
  (outsAt0_B m c t h0).trans
    (Pieces.out_B c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) (iblk m c 2 t)
      (outsAt0 m c (t.val - 1) (Nat.lt_of_le_of_lt (Nat.sub_le _ _) t.isLt)))
end

variable (m : (ℓ : Loc nD τ sig) → Buf (Elt Ideal) ℓ)

/-- One point's store at (0, r, q): the accumulator there plus the terms of the point's 128 eigen-indices. -/
theorem point_apply (c : Dev nD) (t : Fin cfg0.N) (acc : FVec Ideal S1x8192x256 .f32) (r : Fin 8192) (q : Fin 256) :
    k0_pay2 (F := Ideal) (iblk m c 0 t) (iblk m c 1 t) (iblk m c 2 t) acc (ix3 (0 : Fin 1) r q)
      = acc (ix3 (0 : Fin 1) r q)
        + ∑ kk : Fin 128, term (V m c main_arg2) (V m c main_v7) (V m c main_v6) r q (t.val * 128 + kk.val) := by
  have hN : t.val < 64 := lt_of_lt_of_eq t.isLt (show cfg0.N = 64 from N_0)
  refine (Payload.pay2_apply (iblk m c 0 t) (iblk m c 1 t) (iblk m c 2 t) acc r q).trans ?_
  refine congrArg (acc (ix3 (0 : Fin 1) r q) + ·) (Finset.sum_congr rfl fun kk _ => ?_)
  have hk : (col (t.val * 128 + kk.val)).val = t.val * 128 + kk.val := col_val (by have := kk.isLt; omega)
  unfold term
  exact congrArg₂ (· * ·) (Blocks.evecs_apply m c t r kk _ hk)
    (congrArg₂ (· * ·)
      (Finset.sum_congr rfl fun i _ => congrArg₂ (· * ·) (Blocks.evecs_apply m c t i kk _ hk) (Blocks.signal_apply m c t i q))
      (Blocks.coefs_apply m c t kk _ hk))

/-- THE RUNNING SUM: after point n the buffer holds at (0, r, q) the terms of the eigen-indices from the start of
    n's run up to the end of n's panel. -/
theorem outsAt_apply (c : Dev nD) : ∀ (n : ℕ) (h : n < cfg0.N) (r : Fin 8192) (q : Fin 256),
    outsAt0 m c n h (ix3 (0 : Fin 1) r q)
      = ∑ k ∈ Finset.Ico (n / 32 * 4096) ((n + 1) * 128), term (V m c main_arg2) (V m c main_v7) (V m c main_v6) r q k
  | 0, h, r, q => by
    rw [outsAt_reset m c ⟨0, h⟩ rfl]
    refine (point_apply m c ⟨0, h⟩ _ r q).trans ?_
    rw [Payload.pay1_apply]
    exact PanelSums.acc_reset _ 0 rfl
  | n + 1, h, r, q => by
    by_cases h0 : (n + 1) % 32 = 0
    · rw [outsAt_reset m c ⟨n + 1, h⟩ h0]
      refine (point_apply m c ⟨n + 1, h⟩ _ r q).trans ?_
      rw [Payload.pay1_apply]
      exact PanelSums.acc_reset _ (n + 1) h0
    · rw [outsAt_step m c ⟨n + 1, h⟩ h0]
      refine (point_apply m c ⟨n + 1, h⟩ _ r q).trans ?_
      show outsAt0 m c n _ (ix3 (0 : Fin 1) r q) + _ = _
      rw [outsAt_apply c n _ r q]
      exact PanelSums.acc_step _ n h0

end Cert.KernelIdeal.Accum

end
-- ==== Proof.HostPrefix.lean ====
/-
  What the host computes before the kernel is launched, as functions of the argument arrays: the signal rounded to
  bf16, and the column of diffusion coefficients exp (-(evals) * max (1e-8, t)) laid out as [8192, 1]. The
  eigenvector array reaches the kernel untouched. For any float instance.
-/
import proofs.«113723_j80891414053479_2_alg».proof.Proof.Gen.KernelIdeal.Frame.Runs
import Idealize.ShloMosaic.Lib.StableHlo.Run

set_option maxRecDepth 16384

noncomputable section

open Idealize.ShloMosaic Idealize.ShloMosaic.TcCoe Idealize.SL.Sem

namespace Cert.KernelIdeal.HostPrefix

open Cert.KernelIdeal Cert.KernelIdeal.Gen

variable {F : FTy → Type} [FloatOps F]
variable (m : (ℓ : Loc nD τ sig) → Buf (Elt F) ℓ)

/-- The coefficient column as the host builds it from the eigenvalues a1 and the time a3. -/
def coefs (a1 : FVec F S8192 .f32) (a3 : FVec F S1 .f32) : FVec F S8192x1 .f32 :=
  broadcastInDim S8192x1 ![0] bcast_S8192_S8192x1_0 (Host.exp (mulf (Host.negf a1) (broadcastInDim S8192 ![] bcast_S_S8192
    (maximumf (id (constant (F := F) S_ .f32 0x322BCC77#32)) (shapeCast S_ a3 shapeCasts_S1_S_)))))

/-- The kernel's second operand is the signal, rounded. -/
theorem V_signal (c : Dev nD) :
    (V m c main_v7 : S8192x256.Idx → F .bf16) = truncf .bf16 (m ((c : Thread nD τ).loc main_arg0)) bitsLt_bf16_f32 := by
  dsimp only [V, V0]
  simp only [hostOps0, hostOps0_1, hostOps0_2, List.flatten_cons, List.flatten_nil, List.append_nil, List.cons_append,
    List.nil_append]
  after_results <;> rfl

/-- The kernel's third operand is the coefficient column. -/
theorem V_coefs (c : Dev nD) :
    (V m c main_v6 : S8192x1.Idx → F .f32) = coefs (m ((c : Thread nD τ).loc main_arg1)) (m ((c : Thread nD τ).loc main_arg3)) := by
  dsimp only [V, V0]
  simp only [hostOps0, hostOps0_1, hostOps0_2, List.flatten_cons, List.flatten_nil, List.append_nil, List.cons_append,
    List.nil_append]
  after_results <;> rfl

end Cert.KernelIdeal.HostPrefix

end
-- ==== Proof.Spec.lean ====
/-
  The function both programs compute, entry by entry, over the extended reals: spectral diffusion. With e the
  [8192, 8192] eigenvector array, x the [8192, 256] signal and w the [8192, 1] column of coefficients, entry (r, q)
  of the result is

      sum over eigen-indices k of  e (r, k) * (w (k, 0) * (sum over rows n of e (n, k) * x (n, q))),

  that is, project x on the eigenbasis, scale coordinate k by its coefficient, and expand back.
-/
import Idealize.ShloMosaic.Lib.ValueIdx
import Mathlib.Data.EReal.Operations

open Idealize.ShloMosaic Idealize.ShloMosaic.ValueIdx

namespace Cert.Spec

/-- Entry (r, q) of the diffused signal. -/
noncomputable def diffusion (x : (⟨2, ![8192, 256]⟩ : Shape).Idx → EReal) (w : (⟨2, ![8192, 1]⟩ : Shape).Idx → EReal)
    (e : (⟨2, ![8192, 8192]⟩ : Shape).Idx → EReal) (r : Fin 8192) (q : Fin 256) : EReal :=
  ∑ k : Fin 8192, e (ix2 r k) * (w (ix2 k (0 : Fin 1)) * ∑ n : Fin 8192, e (ix2 n k) * x (ix2 n q))

end Cert.Spec
-- ==== Proof.Final.lean ====
/-
  From the running sums to the kernel's result. Point 32 p + 31 ends run p and writes the output block back as slab p
  of the [2, 8192, 256] array of partial results: at (p, r, q) the sum of the terms of the eigen-indices
  4096 p ≤ k < 4096 (p + 1). The two write-backs cover the array. The host then slices the two slabs, drops their
  unit axis and adds them: entry (r, q) of the result is slab 0 plus slab 1 there, the sum over every eigen-index,
  which is the spectral diffusion of the signal.
-/
import proofs.«113723_j80891414053479_2_alg».proof.Proof.Accum
import proofs.«113723_j80891414053479_2_alg».proof.Proof.HostPrefix
import proofs.«113723_j80891414053479_2_alg».proof.Proof.Spec
import proofs.«113723_j80891414053479_2_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Final

open Cert.KernelIdeal Cert.KernelIdeal.Gen

/-- Slab p of the partial results at (r, q): the terms of run p's eigen-indices. -/
def slab (E : S8192x8192.Idx → EReal) (X : S8192x256.Idx → EReal) (W : S8192x1.Idx → EReal) (p : Fin 2) (r : Fin 8192)
    (q : Fin 256) : EReal :=
  ∑ k ∈ Finset.Ico (p.val * 4096) ((p.val + 1) * 4096), Accum.term E X W r q k

/-- The array of partial results. -/
def partials (E : S8192x8192.Idx → EReal) (X : S8192x256.Idx → EReal) (W : S8192x1.Idx → EReal) : S2x8192x256.Idx → EReal :=
  fun j => slab E X W (j 0) (j 1) (j 2)

variable (m : (ℓ : Loc nD τ sig) → Buf (Elt Ideal) ℓ) (ρ : Dev nD → PrngReg)

/-- What the last point of a run writes back is its block of the partial results. -/
theorem flushed_eq (c : Dev nD) (t : Fin cfg0.N) (hf : (cfg0.win 3).flush t = true) :
    (dats m 0 c).flushed 3 t
      = ((cfg0.win 3).blk t).view.read (Elt Ideal) (partials (V m c main_arg2) (V m c main_v7) (V m c main_v6)) := by
  have hN : t.val < 64 := lt_of_lt_of_eq t.isLt (show cfg0.N = 64 from N_0)
  have h31 : t.val % 32 = 31 := (flush0_3 t).mp hf
  show (cfg0.win 3).cut (grid0.coords t) ((dats m 0 c).after 3 t) = _
  rw [after0_3]
  funext y
  obtain ⟨u, r, q, rfl⟩ : ∃ (u : Fin 1) (r : Fin 8192) (q : Fin 256), y = ix3 u r q := ⟨y 0, y 1, y 2, eq_ix3 y⟩
  obtain rfl : u = 0 := Subsingleton.elim _ _
  rw [View.read_apply]
  show outsAt0 m c t.val t.isLt (ix3 (0 : Fin 1) r q) = partials _ _ _ (((cfg0.win 3).blk t).view.emb (ix3 (0 : Fin 1) r q))
  have e : ((cfg0.win 3).blk t).view.emb (ix3 (0 : Fin 1) r q) = ix3 (⟨t.val / 32, by omega⟩ : Fin 2) r q :=
    funext fun a => Fin.ext (by
      match a with
      | ⟨0, _⟩ => show win0_3.index t 0 * 1 + 1 * (0 : Nat) = t.val / 32; rw [(Blocks.index_out t).1]; omega
      | ⟨1, _⟩ => show win0_3.index t 1 * 8192 + 1 * r.val = r.val; rw [(Blocks.index_out t).2.1]; omega
      | ⟨2, _⟩ => show win0_3.index t 2 * 256 + 1 * q.val = q.val; rw [(Blocks.index_out t).2.2]; omega)
  rw [e, Accum.outsAt_apply m c t.val t.isLt r q]
  show _ = slab _ _ _ (⟨t.val / 32, _⟩ : Fin 2) r q
  unfold slab
  rw [show (t.val + 1) * 128 = (t.val / 32 + 1) * 4096 by omega]

/-- Every index of the partial results is in the block one of the two write-backs covers. -/
theorem covered (i : S2x8192x256.Idx) :
    ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 256 := (i 2).isLt
  have hN : cfg0.N = 64 := N_0
  have ht : (i 0).val * 32 + 31 < cfg0.N := by rw [hN]; omega
  refine ⟨⟨(i 0).val * 32 + 31, ht⟩, (flush0_3 _).mpr (by show ((i 0).val * 32 + 31) % 32 = 31; omega), ?_⟩
  show i ∈ ((View.whole main_v8).slice (win0_3.rect ⟨(i 0).val * 32 + 31, ht⟩)).set
  rw [View.set_slice_whole, Rect.mem_set_unit]
  obtain ⟨e0, e1, e2⟩ := Blocks.index_out ⟨(i 0).val * 32 + 31, ht⟩
  have e0' : win0_3.index ⟨(i 0).val * 32 + 31, ht⟩ (0 : Fin 3) = ((i 0).val * 32 + 31) / 32 := e0
  intro a
  match a with
  | ⟨0, _⟩ =>
    show win0_3.index ⟨(i 0).val * 32 + 31, ht⟩ (0 : Fin 3) * 1 ≤ (i 0).val ∧ (i 0).val < win0_3.index ⟨(i 0).val * 32 + 31, ht⟩ (0 : Fin 3) * 1 + 1
    rw [e0']; omega
  | ⟨1, _⟩ =>
    show win0_3.index ⟨(i 0).val * 32 + 31, ht⟩ (1 : Fin 3) * 8192 ≤ (i 1).val ∧ (i 1).val < win0_3.index ⟨(i 0).val * 32 + 31, ht⟩ (1 : Fin 3) * 8192 + 8192
    rw [e1]; omega
  | ⟨2, _⟩ =>
    show win0_3.index ⟨(i 0).val * 32 + 31, ht⟩ (2 : Fin 3) * 256 ≤ (i 2).val ∧ (i 2).val < win0_3.index ⟨(i 0).val * 32 + 31, ht⟩ (2 : Fin 3) * 256 + 256
    rw [e2]; omega

/-- So the kernel's result array ends holding the partial results. -/
theorem final (c : Dev nD) :
    (dats m 0 c).arrAt 3 cfg0.N = partials (V m c main_arg2) (V m c main_v7) (V m c main_v6) :=
  (dats m 0 c).arrAt_eq_of_cover 3 _ (flushed_eq m c) covered

/-- The host's last lines on the partial results: the two slabs, their unit axis dropped, added. -/
theorem tail_eq (c : Dev nD) :
    @Eq (S8192x256.Idx → EReal) (Pipeline.afterTail₀ cfgs (dats m) 0 (V0 m) [hostOps1] c main_v13)
      (addf (F := Ideal) (s := S8192x256) (φ := .f32)
          (shapeCast S8192x256 (extractStridedSlice S1x8192x256 ![0, 0, 0]
            (partials (V m c main_arg2) (V m c main_v7) (V m c main_v6)) slices_S2x8192x256_S1x8192x256_0_0_0)
            shapeCasts_S1x8192x256_S8192x256)
          (shapeCast S8192x256 (extractStridedSlice S1x8192x256 ![1, 0, 0]
            (partials (V m c main_arg2) (V m c main_v7) (V m c main_v6)) slices_S2x8192x256_S1x8192x256_1_0_0)
            shapeCasts_S1x8192x256_S8192x256)) := by
  unfold Pipeline.afterTail₀
  simp only [List.flatten_cons, List.flatten_nil, List.append_nil]
  after_results
  have hP : Pipeline.withArrays (cfgs 0).spec c (V0 m c) (fun w => (dats m 0 c).arrAt w (cfgs 0).N) (Proc.devRef .tc main_v8)
      = partials (V m c main_arg2) (V m c main_v7) (V m c main_v6) :=
    (Pipeline.withArrays_arr spec0 launch0.win.arr_inj c _ _ 3).trans (final m c)
  rw [hP]
  rfl

/-- Two slabs sliced out of a [2, 8192, 256] array, their unit axis dropped, added: at (r, q) the array's entries
    (0, r, q) and (1, r, q) added. -/
theorem slices_add_apply (P : S2x8192x256.Idx → EReal) (r : Fin 8192) (q : Fin 256) :
    addf (F := Ideal) (s := S8192x256) (φ := .f32)
        (shapeCast S8192x256 (extractStridedSlice S1x8192x256 ![0, 0, 0] P slices_S2x8192x256_S1x8192x256_0_0_0)
          shapeCasts_S1x8192x256_S8192x256)
        (shapeCast S8192x256 (extractStridedSlice S1x8192x256 ![1, 0, 0] P slices_S2x8192x256_S1x8192x256_1_0_0)
          shapeCasts_S1x8192x256_S8192x256) (ix2 r q)
      = P (ix3 (0 : Fin 2) r q) + P (ix3 (1 : Fin 2) r q) := by
  refine (addf_apply _ _ _).trans ?_
  refine congrArg₂ (· + ·) ((shapeCast_1ab_ab_apply _ _ r q).trans ?_) ((shapeCast_1ab_ab_apply _ _ r q).trans ?_)
  · exact extractStridedSlice_apply ![0, 0, 0] P slices_S2x8192x256_S1x8192x256_0_0_0 (ix3 (0 : Fin 1) r q) (ix3 (0 : Fin 2) r q)
      fun a => by
        match a with
        | ⟨0, _⟩ => rfl
        | ⟨1, _⟩ => show r.val = 0 + r.val; omega
        | ⟨2, _⟩ => show q.val = 0 + q.val; omega
  · exact extractStridedSlice_apply ![1, 0, 0] P slices_S2x8192x256_S1x8192x256_1_0_0 (ix3 (0 : Fin 1) r q) (ix3 (1 : Fin 2) r q)
      fun a => by
        match a with
        | ⟨0, _⟩ => rfl
        | ⟨1, _⟩ => show r.val = 0 + r.val; omega
        | ⟨2, _⟩ => show q.val = 0 + q.val; omega

/-- The partial results at (p, r, q) are slab p at (r, q). -/
theorem partials_apply (E : S8192x8192.Idx → EReal) (X : S8192x256.Idx → EReal) (W : S8192x1.Idx → EReal) (p : Fin 2)
    (r : Fin 8192) (q : Fin 256) : partials E X W (ix3 p r q) = slab E X W p r q := rfl

/-- The terms of all 8192 eigen-indices add up to the spectral diffusion (the coefficient moves to the other side
    of the projected coordinate: multiplication of extended reals commutes). -/
theorem sum_terms (E : S8192x8192.Idx → EReal) (X : S8192x256.Idx → EReal) (W : S8192x1.Idx → EReal) (r : Fin 8192) (q : Fin 256) :
    ∑ k : Fin 8192, Accum.term E X W r q k.val = Cert.Spec.diffusion X W E r q := by
  unfold Cert.Spec.diffusion
  refine Finset.sum_congr rfl fun k _ => ?_
  unfold Accum.term
  rw [Accum.col_fin]
  exact congrArg (E (ix2 r k) * ·) (mul_comm _ _)

/-- The two slabs together are the spectral diffusion. -/
theorem slabs_total (E : S8192x8192.Idx → EReal) (X : S8192x256.Idx → EReal) (W : S8192x1.Idx → EReal) (r : Fin 8192) (q : Fin 256) :
    slab E X W 0 r q + slab E X W 1 r q = Cert.Spec.diffusion X W E r q := by
  unfold slab
  show (∑ k ∈ Finset.Ico (0 * 4096) ((0 + 1) * 4096), Accum.term E X W r q k)
      + (∑ k ∈ Finset.Ico (1 * 4096) ((1 + 1) * 4096), Accum.term E X W r q k) = _
  rw [PanelSums.sum_halves, sum_terms]

/-- THE KERNEL PROGRAM'S RESULT is the spectral diffusion of the signal with the host-built coefficient column. -/
theorem result_eq (c : Dev nD) :
    @Eq (S8192x256.Idx → EReal) (Pipeline.afterTail₀ cfgs (dats m) 0 (V0 m) [hostOps1] c main_v13)
      (fun i => Cert.Spec.diffusion (m ((c : Thread nD τ).loc main_arg0))
          (HostPrefix.coefs (F := Ideal) (m ((c : Thread nD τ).loc main_arg1)) (m ((c : Thread nD τ).loc main_arg3)))
          (m ((c : Thread nD τ).loc main_arg2)) (i 0) (i 1)) := by
  rw [tail_eq]
  funext i
  obtain ⟨r, q, rfl⟩ : ∃ (r : Fin 8192) (q : Fin 256), i = ix2 r q := ⟨i 0, i 1, eq_ix2 i⟩
  refine (slices_add_apply _ r q).trans ?_
  refine (congrArg₂ (· + ·) (partials_apply (V m c main_arg2) (V m c main_v7) (V m c main_v6) 0 r q)
    (partials_apply (V m c main_arg2) (V m c main_v7) (V m c main_v6) 1 r q)).trans ?_
  refine (slabs_total (V m c main_arg2) (V m c main_v7) (V m c main_v6) r q).trans ?_
  rw [V_main_arg2, HostPrefix.V_coefs, HostPrefix.V_signal]
  rfl

/-- The run, read: the result at the diffusion of the arguments, the arguments unchanged. -/
theorem run : θ_run defs (onTc (τ := τ) (main (F := Ideal))) ⟨m, fun _ => 0, ρ⟩ fun r => ∀ c : Dev nD,
      r.2.mem ((c.tc : Thread nD τ).loc main_v13)
        = (fun i => Cert.Spec.diffusion (m ((c : Thread nD τ).loc main_arg0))
            (HostPrefix.coefs (F := Ideal) (m ((c : Thread nD τ).loc main_arg1)) (m ((c : Thread nD τ).loc main_arg3)))
            (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.RefRead.lean ====
/-
  The reference read at an index, over the extended reals: entry (r, q) of its result is the spectral diffusion of
  the signal. Its last product contracts the eigen-index k between the eigenvector array at (r, k) and, at (k, q),
  the coefficient column broadcast along the columns times the first product, which contracts the rows n between the
  eigenvector array at (n, k) and the signal at (n, q).
-/
import proofs.«113723_j80891414053479_2_alg».proof.Defs
import proofs.«113723_j80891414053479_2_alg».proof.Proof.Gen.ReferenceIdeal.Run
import proofs.«113723_j80891414053479_2_alg».proof.Proof.Gen.ReferenceIdeal.Read
import proofs.«113723_j80891414053479_2_alg».proof.Proof.Spec

noncomputable section

open Idealize.ShloMosaic Idealize.ShloMosaic.TcCoe Idealize.SL.Sem
open Idealize.ShloMosaic.ValueIdx

namespace Cert.ReferenceIdeal.RefRead

open Cert.ReferenceIdeal Cert.ReferenceIdeal.Gen Cert.ReferenceIdeal.Read

/-- The last product reads its left operand at (r, k) -/
theorem lidx_out (r : Fin 8192) (q : Fin 256) (k : Fin 8192) : lidx_main_v10 (ix2 r q) k = ix2 r k :=
  funext fun a => Fin.ext (by match a with | ⟨0, _⟩ => rfl | ⟨1, _⟩ => rfl)
/-- and its right operand at (k, q); -/
theorem ridx_out (r : Fin 8192) (q : Fin 256) (k : Fin 8192) : ridx_main_v10 (ix2 r q) k = ix2 k q :=
  funext fun a => Fin.ext (by match a with | ⟨0, _⟩ => rfl | ⟨1, _⟩ => rfl)
/-- the broadcast coefficient at (k, q) is the column's entry (k, 0); -/
theorem idx_coef (k : Fin 8192) (q : Fin 256) : idx_main_v8 (ix2 k q) = ix2 k (0 : Fin 1) :=
  funext fun a => Fin.ext (by match a with | ⟨0, _⟩ => rfl | ⟨1, _⟩ => rfl)
/-- the first product reads its left operand at (n, k) -/
theorem lidx_proj (k : Fin 8192) (q : Fin 256) (n : Fin 8192) : lidx_main_v2 (ix2 k q) n = ix2 n k :=
  funext fun a => Fin.ext (by match a with | ⟨0, _⟩ => rfl | ⟨1, _⟩ => rfl)
/-- and its right operand at (n, q). -/
theorem ridx_proj (k : Fin 8192) (q : Fin 256) (n : Fin 8192) : ridx_main_v2 (ix2 k q) n = ix2 n q :=
  funext fun a => Fin.ext (by match a with | ⟨0, _⟩ => rfl | ⟨1, _⟩ => rfl)

/-- Entry (r, q) of the reference's result is the diffusion of the signal a0 with the coefficient column the
    reference builds from a1 and a3, in the eigenbasis a2. -/
theorem result_apply (a0 : (⟨S8192x256, .f32⟩ : BufTy).Contents (Elt Ideal)) (a1 : (⟨S8192, .f32⟩ : BufTy).Contents (Elt Ideal))
    (a2 : (⟨S8192x8192, .f32⟩ : BufTy).Contents (Elt Ideal)) (a3 : (⟨S1, .f32⟩ : BufTy).Contents (Elt Ideal)) (r : Fin 8192) (q : Fin 256) :
    val_main_v10 (F := Ideal) a0 a1 a2 a3 (ix2 r q) = Cert.Spec.diffusion a0 (val_main_v7 (F := Ideal) a1 a3) a2 r q := by
  unfold Cert.Spec.diffusion
  rw [val_main_v10_apply]
  refine Finset.sum_congr rfl fun k _ => ?_
  rw [lidx_out, ridx_out, val_main_v9_apply, val_main_v8_apply, val_main_v2_apply, idx_coef]
  simp only [lidx_proj, ridx_proj]
  rfl

end Cert.ReferenceIdeal.RefRead

end
-- ==== Proof.lean ====
/-
  Spectral diffusion, fused into one pass over the eigenvectors, against its textbook form.

  The kernel program streams the [8192, 8192] eigenvector array e once, in 64 panels of 128 columns. For panel t it
  projects the signal x on the panel's eigenvectors (the sum over rows n of e (n, k) * x (n, q)), scales coordinate k
  by its coefficient w (k) = exp (-(eigenvalue k) * max (1e-8, t)), expands back (e (r, k) times that) and adds the
  result into an accumulator; two accumulators, one per run of 32 panels, each started from zero, are added on the
  host. The reference projects on all 8192 eigenvectors at once, scales, and expands in one product. Over the
  extended reals the roundings to bf16 are the identity, both products into a zero accumulator are plain sums, and the
  kernel program's result at (r, q) is the sum over k of e (r, k) * ((projection k q) * w (k)) grouped by panel and by
  run, the reference's the same sum with the two inner factors in the other order: regrouping a finite sum and
  commuting a product hold for all extended reals, so the precondition (finite inputs) is never opened.

  The three frames: the two kernel programs' are the generated frame proofs; the reference has no kernel and its frame
  is its generated run with the result dropped. The idealization rewrote nothing.
-/
import proofs.«113723_j80891414053479_2_alg».proof.Defs
import proofs.«113723_j80891414053479_2_alg».proof.Proof.Gen.Kernel
import proofs.«113723_j80891414053479_2_alg».proof.Proof.Gen.Kernel.Frame
import proofs.«113723_j80891414053479_2_alg».proof.Proof.Gen.KernelIdeal
import proofs.«113723_j80891414053479_2_alg».proof.Proof.Gen.KernelIdeal.Frame
import proofs.«113723_j80891414053479_2_alg».proof.Proof.Gen.ReferenceIdeal
import proofs.«113723_j80891414053479_2_alg».proof.Proof.Gen.ReferenceIdeal.Run
import proofs.«113723_j80891414053479_2_alg».proof.Proof.Gen.ReferenceIdeal.Read
import proofs.«113723_j80891414053479_2_alg».proof.Proof.Gen.Pre_finite_inputs
import proofs.«113723_j80891414053479_2_alg».proof.Proof.Final
import proofs.«113723_j80891414053479_2_alg».proof.Proof.RefRead
import Idealize.ShloMosaic.Adequacy
import Idealize.ShloMosaic.Init

noncomputable section

namespace Cert.Proof

open Idealize.ShloMosaic Idealize.ShloMosaic.TcCoe Idealize.SL.Sem
open Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The coefficient column is built by the same host operations in both programs. -/
theorem coefs_eq (a1 : Cert.KernelIdeal.S8192.Idx → EReal) (a3 : Cert.KernelIdeal.S1.Idx → EReal) :
    Cert.KernelIdeal.HostPrefix.coefs (F := Ideal) a1 a3 = Cert.ReferenceIdeal.Read.val_main_v7 (F := Ideal) a1 a3 := rfl

/-- Both programs end with the spectral diffusion of the signal: the kernel program by its run read panel by panel,
    the reference by its run read at an index, from arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq]
  funext i
  obtain ⟨r, q, rfl⟩ : ∃ (r : Fin 8192) (q : Fin 256), i = ix2 r q := ⟨i 0, i 1, eq_ix2 i⟩
  rw [Cert.ReferenceIdeal.RefRead.result_apply, (hagree c).1, (hagree c).2.1, (hagree c).2.2.1, (hagree c).2.2.2,
    ← coefs_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
